-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 103
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x32, .f32⟩
  | .hbm, ⟨85, _⟩ => ⟨S1700000x1, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x32, .f32⟩
  | .hbm, ⟨95, _⟩ => ⟨S1700000x32, .f32⟩
  | .hbm, ⟨96, _⟩ => ⟨S1700000x32, .f32⟩
  | .hbm, ⟨97, _⟩ => ⟨S_, .f32⟩
  | .hbm, ⟨98, _⟩ => ⟨S100000x32, .f32⟩
  | .hbm, ⟨99, _⟩ => ⟨S1700000x1, .i32⟩
  | .hbm, ⟨100, _⟩ => ⟨S100000x32, .f32⟩
  | .hbm, ⟨101, _⟩ => ⟨S1x32, .f32⟩
  | .hbm, ⟨102, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x32, .f32⟩
  | .hbm, ⟨95, _⟩ => ⟨S1700000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x32, .f32⟩
  | .hbm, ⟨105, _⟩ => ⟨S1700000x32, .f32⟩
  | .hbm, ⟨106, _⟩ => ⟨S1700000x32, .f32⟩
  | .hbm, ⟨107, _⟩ => ⟨S_, .f32⟩
  | .hbm, ⟨108, _⟩ => ⟨S100000x32, .f32⟩
  | .hbm, ⟨109, _⟩ => ⟨S1700000x1, .i32⟩
  | .hbm, ⟨110, _⟩ => ⟨S100000x32, .f32⟩
  | .hbm, ⟨111, _⟩ => ⟨S1x32, .f32⟩
  | .hbm, ⟨112, _⟩ => ⟨S100000x32, .f32⟩
  | .hbm, ⟨113, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/- The run of the TensorCore program `Cert.KernelIdeal.main` with its RESULT kept, at any float interpretation `F`.
   `Gen.W10 m ρ c` is core `c`'s buffer contents after the last of @main's ten segments, folded from the launch
   memory `m` through every host stretch (`StableHlo.after`) and every region's write-backs (`Pipeline.withArrays`).
   `run_all`: from any memory `m` with every semaphore counter at zero, every weakly fair execution of @main
   terminates, and in every final state each unscoped buffer `b` of each core `c` holds `Gen.W10 m ρ c b`.
   `run_result`: the same run read at nine buffers — the result `main_v75` holds `Gen.W10 m ρ c` at its reference,
   and each of the eight arguments holds what it held in `m` (no segment writes an argument, so the fold at an
   argument walks back to `m`: `Gen.W10_main_argK`). -/
import proofs.«166058_j6794638262379_1_alg».proof.Proof.Gen.KernelIdeal.Frame

-- membership in a rectangle of the program's extents recurses once per coordinate of the long axes
set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one, which takes unfolding
-- plain definitions in a metavariable's type
set_option backward.isDefEq.respectTransparency.types false in
/-- Every weakly fair execution of @main on the TensorCores, from memory `m` with zero counters and generator
    registers `ρ`, terminates, and every final state has EVERY unscoped buffer of every core at the fold's last
    contents `Gen.W10 m ρ c`: the segments' thread states chain from "every unscoped buffer at the launch contents"
    to "every unscoped buffer at `Gen.W10`", and the last is read against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run read at the result and the arguments: in every final state the result buffer `main_v75` of every
    core holds the fold's last contents at its reference, and each argument buffer holds what it held at launch. -/
theorem run_result : θ_run defs (onTc (τ := τ) (main (F := F))) ⟨m, fun _ => 0, ρ⟩ (fun r => ∀ c : Dev nD,
      r.2.mem ((c.tc : Thread nD τ).loc main_v75) = Gen.W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (Gen.mem_uc main_v75 (by decide)),
     (h c _ (Gen.mem_uc main_arg0 (by decide))).trans (Gen.W10_main_arg0 m ρ c),
     (h c _ (Gen.mem_uc main_arg1 (by decide))).trans (Gen.W10_main_arg1 m ρ c),
     (h c _ (Gen.mem_uc main_arg2 (by decide))).trans (Gen.W10_main_arg2 m ρ c),
     (h c _ (Gen.mem_uc main_arg3 (by decide))).trans (Gen.W10_main_arg3 m ρ c),
     (h c _ (Gen.mem_uc main_arg4 (by decide))).trans (Gen.W10_main_arg4 m ρ c),
     (h c _ (Gen.mem_uc main_arg5 (by decide))).trans (Gen.W10_main_arg5 m ρ c),
     (h c _ (Gen.mem_uc main_arg6 (by decide))).trans (Gen.W10_main_arg6 m ρ c),
     (h c _ (Gen.mem_uc main_arg7 (by decide))).trans (Gen.W10_main_arg7 m ρ c)⟩)
    (run_all m ρ)

/-- info: 'Cert.KernelIdeal.KernelRun.run_result' depends on axioms: [propext, Classical.choice, Quot.sound] -/
#guard_msgs in #print axioms run_result

end Cert.KernelIdeal.KernelRun

end
-- ==== Proof.Spec.lean ====
/-
  The three per-entry laws of a graph-convolution stack on the extended reals, over any extents.
  `lin x w r q` is entry (r, q) of the matrix product x · w: the sum over k of x(r, k) · w(k, q).
  `brl x b w r q` is entry (r, q) of relu(x + b) · w, the bias b added along every row of x and the
  rectifier taken entrywise against the zero word before the product: the sum over k of max(x(r, k) + b(k), 0) · w(k, q).
  Both are sums of products only: no law of the extended reals beyond the definitions is used to state them.
-/
import Idealize.ShloMosaic.PureOps.Ideal
import Idealize.ShloMosaic.Lib.ValueIdx

noncomputable section

namespace Cert.Spec

open Idealize.ShloMosaic Idealize.ShloMosaic.ValueIdx

/-- The f32 zero word read as an extended real. -/
abbrev zero32 : EReal := Ideal.ofBits .f32 0x00000000#32

/-- Entry (r, q) of the product of an [N, K] matrix with a [K, D] matrix. -/
def lin {N K D : ℕ} (x : (⟨2, ![N, K]⟩ : Shape).Idx → EReal) (w : (⟨2, ![K, D]⟩ : Shape).Idx → EReal)
    (r : Fin N) (q : Fin D) : EReal :=
  ∑ k : Fin K, x (ix2 r k) * w (ix2 k q)

/-- Entry (r, q) of relu(x + b) · w for an [N, K] matrix x, a bias vector b of length K and a [K, D] matrix w. -/
def brl {N K D : ℕ} (x : (⟨2, ![N, K]⟩ : Shape).Idx → EReal) (b : (⟨1, ![K]⟩ : Shape).Idx → EReal)
    (w : (⟨2, ![K, D]⟩ : Shape).Idx → EReal) (r : Fin N) (q : Fin D) : EReal :=
  ∑ k : Fin K, max (x (ix2 r k) + b (ix1 k)) zero32 * w (ix2 k q)

end Cert.Spec

end
-- ==== Proof.RefStages.lean ====
/-
  The reference's four dense stages, each read at one entry (r, q) of its [100000, ·] array, at the ideal values, against
  the shared per-entry laws: stage 30 is entry (r, q) of the product features · weight; stages 48 and 66 are entry (r, q) of
  relu(aggregate + bias) · weight, the aggregate (the scatter-add stage before them) left unopened; stage 82 is the last
  aggregate plus its bias.

  Each stage's generated reading lemma gives the entry as a sum over k (or a sum of two terms) of the operands at computed
  indices; at an index given by its coordinates those computed indices are again indices given by coordinates, axis by axis.
-/
import proofs.«166058_j6794638262379_1_alg».proof.Proof.RefReadP
import proofs.«166058_j6794638262379_1_alg».proof.Proof.Spec
import Idealize.ShloMosaic.Lib.ValueIdx

noncomputable section

namespace Cert.ReferenceIdeal.RefStages

open Idealize.ShloMosaic Idealize.ShloMosaic.ValueIdx Cert.ReferenceIdeal Cert.ReferenceIdeal.Read

/-- Stage 30: entry (r, q) of features · first weight. -/
theorem ref30_apply (x0 : (⟨S100000x64, .f32⟩ : BufTy).Contents (Elt Ideal)) (x2 : (⟨S64x64, .f32⟩ : BufTy).Contents (Elt Ideal)) (r : Fin 100000) (q : Fin 64) :
    val_main_v30 (F := Ideal) x0 x2 (ix2 r q) = Cert.Spec.lin x0 x2 r q := by
  rw [val_main_v30_apply]
  unfold Cert.Spec.lin
  refine Finset.sum_congr rfl fun k _ => ?_
  have el : lidx_main_v30 (ix2 r q) k = ix2 r k :=
    funext fun a => Fin.ext (by match a with | ⟨0, _⟩ => rfl | ⟨1, _⟩ => rfl)
  have er : ridx_main_v30 (ix2 r q) k = ix2 k q :=
    funext fun a => Fin.ext (by match a with | ⟨0, _⟩ => rfl | ⟨1, _⟩ => rfl)
  rw [el, er]

/-- Stage 48: entry (r, q) of relu(first aggregate + first bias) · second weight. -/
theorem ref48_apply (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (r : Fin 100000) (q : Fin 64) :
    val_main_v48 (F := Ideal) x0 x1 x2 x3 x4 (ix2 r q)
      = Cert.Spec.brl (val_main_v43 (F := Ideal) x0 x1 x2) x3 x4 r q := by
  rw [val_main_v48_apply]
  unfold Cert.Spec.brl
  refine Finset.sum_congr rfl fun k _ => ?_
  have el : lidx_main_v48 (ix2 r q) k = ix2 r k :=
    funext fun a => Fin.ext (by match a with | ⟨0, _⟩ => rfl | ⟨1, _⟩ => rfl)
  have er : ridx_main_v48 (ix2 r q) k = ix2 k q :=
    funext fun a => Fin.ext (by match a with | ⟨0, _⟩ => rfl | ⟨1, _⟩ => rfl)
  have eb : idx_main_v44 (idx_main_v45 (ix2 r k)) = ix1 k :=
    funext fun a => Fin.ext (by match a with | ⟨0, _⟩ => rfl)
  rw [el, er, val_main_v47_apply, val_main_v46_apply, val_main_v45_apply, val_main_v44_apply, val_main_call1_v0_apply,
    val_main_call1_cst_apply, eb]
  rfl

/-- Stage 66: entry (r, q) of relu(second aggregate + second bias) · third weight. -/
theorem ref66_apply (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (r : Fin 100000) (q : Fin 32) :
    val_main_v66 (F := Ideal) x0 x1 x2 x3 x4 x5 x6 (ix2 r q)
      = Cert.Spec.brl (val_main_v61 (F := Ideal) x0 x1 x2 x3 x4) x5 x6 r q := by
  rw [val_main_v66_apply]
  unfold Cert.Spec.brl
  refine Finset.sum_congr rfl fun k _ => ?_
  have el : lidx_main_v66 (ix2 r q) k = ix2 r k :=
    funext fun a => Fin.ext (by match a with | ⟨0, _⟩ => rfl | ⟨1, _⟩ => rfl)
  have er : ridx_main_v66 (ix2 r q) k = ix2 k q :=
    funext fun a => Fin.ext (by match a with | ⟨0, _⟩ => rfl | ⟨1, _⟩ => rfl)
  have eb : idx_main_v62 (idx_main_v63 (ix2 r k)) = ix1 k :=
    funext fun a => Fin.ext (by match a with | ⟨0, _⟩ => rfl)
  rw [el, er, val_main_v65_apply, val_main_v64_apply, val_main_v63_apply, val_main_v62_apply, val_main_call2_v0_apply,
    val_main_call2_cst_apply, eb]
  rfl

/-- Stage 82: entry (r, q) of third aggregate + third bias. -/
theorem ref82_apply (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (r : Fin 100000) (q : Fin 32) :
    val_main_v82 (F := Ideal) x0 x1 x2 x3 x4 x5 x6 x7 (ix2 r q)
      = val_main_v79 (F := Ideal) x0 x1 x2 x3 x4 x5 x6 (ix2 r q) + x7 (ix1 q) := by
  have eb : idx_main_v80 (idx_main_v81 (ix2 r q)) = ix1 q :=
    funext fun a => Fin.ext (by match a with | ⟨0, _⟩ => rfl)
  rw [val_main_v82_apply, val_main_v81_apply, val_main_v80_apply, eb]
  rfl

end Cert.ReferenceIdeal.RefStages

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«166058_j6794638262379_1_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«166058_j6794638262379_1_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.Payloads.lean ====
/-
  The four stored values of the graph-convolution kernel's bodies, each read at one entry (p, q) of its block, at the
  ideal values (floats are extended reals, a format change is the identity).

  Body 0 stores the product of its [5000, 64] block with the [64, 64] weight: entry (p, q) is the sum over k of
  x(p, k) · w(k, q). Bodies 1 and 2 add the [1, 64] bias row to every row of the block, take the maximum with the zero
  word entrywise, and multiply by the weight ([64, 64], resp. [64, 32]): entry (p, q) is the sum over k of
  max(x(p, k) + b(0, k), 0) · w(k, q). Body 3 stores the block plus the [1, 32] bias row: entry (p, q) is x(p, q) + b(0, q).

  Two facts carry all four: a product into the zero accumulator whose dimension record is a plain product's reads as the
  sum of products of a row with a column; and a [1, c] row broadcast to [a, c] reads, at (p, k), the row at (0, k).
-/
import proofs.«166058_j6794638262379_1_alg».proof.Proof.Gen.KernelIdeal.Skeleton
import proofs.«166058_j6794638262379_1_alg».proof.Proof.LibPlainRecord
import proofs.«166058_j6794638262379_1_alg».proof.Proof.Spec
import Idealize.ShloMosaic.Lib.ValueIdx
import Idealize.ShloMosaic.Lib.Pipeline.Value
import Idealize.ShloMosaic.Lib.ValueLayout

noncomputable section

namespace Cert.KernelIdeal.Payloads

open Idealize.ShloMosaic Idealize.ShloMosaic.ValueIdx Cert.KernelIdeal Cert.KernelIdeal.Gen

/-! ## A row broadcast along the rows, and the bias-and-rectifier entry -/

/-- A [1, c] row broadcast to [a, c], read at (p, k), is the row at (0, k): the unit axis reads coordinate 0, the other
    axis keeps its coordinate (which is 0 anyway when c = 1). -/
theorem rowBroadcast_apply {a c : ℕ} {α : Type} (x : (⟨2, ![1, c]⟩ : Shape).Idx → α)
    (h : (⟨2, ![1, c]⟩ : Shape).Broadcasts ⟨2, ![a, c]⟩) (p : Fin a) (k : Fin c) :
    broadcastTo ⟨2, ![a, c]⟩ x h (ix2 p k) = x (ix2 (0 : Fin 1) k) :=
  broadcastTo_apply x h (ix2 p k) (ix2 (0 : Fin 1) k) fun ax => by
    match ax with
    | ⟨0, _⟩ =>
      show 0 = if (1 : ℕ) = 1 then 0 else _
      rw [if_pos rfl]
    | ⟨1, _⟩ =>
      show k.val = if c = 1 then 0 else k.val
      by_cases hc : c = 1
      · rw [if_pos hc]; have := k.isLt; omega
      · rw [if_neg hc]

/-- The block plus the bias row, both re-cast to their own shapes, read at (p, k): x(p, k) + b(0, k). -/
theorem biasAdd_apply {a c : ℕ} (x : FVec Ideal ⟨2, ![a, c]⟩ .f32) (b : FVec Ideal ⟨2, ![1, c]⟩ .f32)
    (h1 : (⟨2, ![a, c]⟩ : Shape).ShapeCasts ⟨2, ![a, c]⟩) (h2 : (⟨2, ![1, c]⟩ : Shape).ShapeCasts ⟨2, ![1, c]⟩)
    (h3 : (⟨2, ![1, c]⟩ : Shape).Broadcasts ⟨2, ![a, c]⟩) (p : Fin a) (k : Fin c) :
    addf (shapeCast ⟨2, ![a, c]⟩ x h1) (broadcastTo ⟨2, ![a, c]⟩ (shapeCast ⟨2, ![1, c]⟩ b h2) h3) (ix2 p k)
      = x (ix2 p k) + b (ix2 (0 : Fin 1) k) := by
  rw [addf_apply, shapeCast_self x h1, shapeCast_self b h2, rowBroadcast_apply]

/-- The rectified biased block, narrowed for the product (the identity on extended reals), read at (p, k):
    max(x(p, k) + b(0, k), 0). -/
theorem biasRelu_apply {a c : ℕ} (x : FVec Ideal ⟨2, ![a, c]⟩ .f32) (b : FVec Ideal ⟨2, ![1, c]⟩ .f32)
    (h1 : (⟨2, ![a, c]⟩ : Shape).ShapeCasts ⟨2, ![a, c]⟩) (h2 : (⟨2, ![1, c]⟩ : Shape).ShapeCasts ⟨2, ![1, c]⟩)
    (h3 : (⟨2, ![1, c]⟩ : Shape).Broadcasts ⟨2, ![a, c]⟩) (h4 : FTy.bf16.bits < FTy.f32.bits) (p : Fin a) (k : Fin c) :
    (truncf .bf16
        (maximumf (addf (shapeCast ⟨2, ![a, c]⟩ x h1) (broadcastTo ⟨2, ![a, c]⟩ (shapeCast ⟨2, ![1, c]⟩ b h2) h3))
          (broadcast ⟨2, ![a, c]⟩ (Scalar.ofBits (F := Ideal) .f32 0x00000000#32))) h4 : FVec Ideal ⟨2, ![a, c]⟩ .bf16) (ix2 p k)
      = max (x (ix2 p k) + b (ix2 (0 : Fin 1) k)) Cert.Spec.zero32 := by
  rw [truncf_apply, maximumf_apply, biasAdd_apply x b h1 h2 h3 p k]
  rfl

/-! ## The two dimension records are plain products -/

theorem plain_64x64 : Cert.LibMatRows.RowsTimesMat dot_S5000x64_S64x64_S5000x64_1_0_0_1_n_n :=
  Cert.LibPlainRecord.rowsTimesMat_of_lists dot_S5000x64_S64x64_S5000x64_1_0_0_1_n_n rfl rfl rfl rfl rfl rfl

theorem plain_64x32 : Cert.LibMatRows.RowsTimesMat dot_S5000x64_S64x32_S5000x32_1_0_0_1_n_n :=
  Cert.LibPlainRecord.rowsTimesMat_of_lists dot_S5000x64_S64x32_S5000x32_1_0_0_1_n_n rfl rfl rfl rfl rfl rfl

/-! ## The four stored values at an entry -/

/-- Body 0: entry (p, q) of block · weight. -/
theorem pay0_apply (x0 : Vec Ideal S5000x64 .f32) (x1 : Vec Ideal S64x64 .f32) (p : Fin 5000) (q : Fin 64) :
    k0_pay1 (F := Ideal) x0 x1 (ix2 p q) = Cert.Spec.lin x0 x1 p q := by
  unfold k0_pay1
  refine (Cert.LibMatRows.matmul_rows plain_64x64 _ _ p q).trans ?_
  rfl

/-- Body 1: entry (p, q) of relu(block + bias) · weight, weight [64, 64]. -/
theorem pay1_apply (x0 : Vec Ideal S5000x64 .f32) (xb : Vec Ideal S1x64 .f32) (x2 : Vec Ideal S64x64 .f32) (p : Fin 5000) (q : Fin 64) :
    k1_pay1 (F := Ideal) x0 xb x2 (ix2 p q)
      = ∑ k : Fin 64, max (x0 (ix2 p k) + xb (ix2 (0 : Fin 1) k)) Cert.Spec.zero32 * x2 (ix2 k q) := by
  unfold k1_pay1
  refine (Cert.LibMatRows.matmul_rows plain_64x64 _ _ p q).trans ?_
  refine Finset.sum_congr rfl fun k _ => ?_
  refine congrArg (· * x2 (ix2 k q)) ?_
  exact biasRelu_apply x0 xb _ _ _ _ p k

/-- Body 2: entry (p, q) of relu(block + bias) · weight, weight [64, 32]. -/
theorem pay2_apply (x0 : Vec Ideal S5000x64 .f32) (xb : Vec Ideal S1x64 .f32) (x2 : Vec Ideal S64x32 .f32) (p : Fin 5000) (q : Fin 32) :
    k2_pay1 (F := Ideal) x0 xb x2 (ix2 p q)
      = ∑ k : Fin 64, max (x0 (ix2 p k) + xb (ix2 (0 : Fin 1) k)) Cert.Spec.zero32 * x2 (ix2 k q) := by
  unfold k2_pay1
  refine (Cert.LibMatRows.matmul_rows plain_64x32 _ _ p q).trans ?_
  refine Finset.sum_congr rfl fun k _ => ?_
  refine congrArg (· * x2 (ix2 k q)) ?_
  exact biasRelu_apply x0 xb _ _ _ _ p k

/-- Body 3: entry (p, q) of block + bias. -/
theorem pay3_apply (x0 : Vec Ideal S5000x32 .f32) (xb : Vec Ideal S1x32 .f32) (p : Fin 5000) (q : Fin 32) :
    k3_pay1 (F := Ideal) x0 xb (ix2 p q) = x0 (ix2 p q) + xb (ix2 (0 : Fin 1) q) := by
  unfold k3_pay1
  exact biasAdd_apply x0 xb _ _ _ p q

end Cert.KernelIdeal.Payloads

end
-- ==== Proof.Blocks.lean ====
/-
  Each of the four regions' output array after its grid, as ONE function of the arrays the region finds when it is
  entered, at the ideal values (floats are extended reals), for any entry contents `V`.

  Every region runs a grid of twenty points over an array of 100000 rows. At point t the first input's block and the
  output's block are rows 5000 · t … 5000 · t + 4999 (all columns); every other input (a bias row, a weight) has one block,
  its whole array. The body's stored block at entry (p, q) is a function of the input blocks (the payload laws); read
  through the blocks' places it is the same function of the whole arrays at entry (5000 · t + p, q). The twenty output
  blocks tile the array and each is written back, so the array ends as that function everywhere:
    region 0:  G0 a0 a1 (r, q)   = Σ_k a0(r, k) · a1(k, q)
    regions 1, 2:  G a b w (r, q) = Σ_k max(a(r, k) + b(0, k), 0) · w(k, q)
    region 3:  G3 a b (r, q)     = a(r, q) + b(0, q).
-/
import proofs.«166058_j6794638262379_1_alg».proof.Proof.Gen.KernelIdeal.Frame
import proofs.«166058_j6794638262379_1_alg».proof.Proof.Payloads
import proofs.«166058_j6794638262379_1_alg».proof.Proof.Spec
import Idealize.ShloMosaic.Lib.Pipeline.Value
import Idealize.ShloMosaic.Lib.ValueIdx

-- membership in a rectangle of the arrays' extents recurses once per coordinate of the long axes
set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block rectangle, as the constant function. -/
theorem hz : (![0, 0] : Fin 2 → Nat) = fun _ => 0 := funext fun a => by fin_cases a <;> rfl

/-! ## The four whole-array functions -/

/-- Entry (r, q) of a0 · a1: the sum over k of a0(r, k) · a1(k, q). -/
def G0 (a0 : S100000x64.Idx → EReal) (a1 : S64x64.Idx → EReal) : S100000x64.Idx → EReal :=
  fun i => Cert.Spec.lin (N := 100000) (K := 64) (D := 64) a0 a1 (i 0) (i 1)

/-- Entry (r, q) of relu(a + b) · w, weight [64, 64]: the sum over k of max(a(r, k) + b(0, k), 0) · w(k, q). -/
def G1 (a : S100000x64.Idx → EReal) (b : S1x64.Idx → EReal) (w : S64x64.Idx → EReal) : S100000x64.Idx → EReal :=
  fun i => ∑ k : Fin 64, max (a (ix2 (i 0) k) + b (ix2 (0 : Fin 1) k)) Cert.Spec.zero32 * w (ix2 k (i 1))

/-- Entry (r, q) of relu(a + b) · w, weight [64, 32]: the sum over k of max(a(r, k) + b(0, k), 0) · w(k, q). -/
def G2 (a : S100000x64.Idx → EReal) (b : S1x64.Idx → EReal) (w : S64x32.Idx → EReal) : S100000x32.Idx → EReal :=
  fun i => ∑ k : Fin 64, max (a (ix2 (i 0) k) + b (ix2 (0 : Fin 1) k)) Cert.Spec.zero32 * w (ix2 k (i 1))

/-- Entry (r, q) of a + b, the bias row added along every row: a(r, q) + b(0, q). -/
def G3 (a : S100000x32.Idx → EReal) (b : S1x32.Idx → EReal) : S100000x32.Idx → EReal :=
  fun i => a i + b (ix2 (0 : Fin 1) (i 1))

/-! ## Region 0: the output array `main_v30` after the grid -/

/-- Where each window's block sits at grid point `t`, in blocks: the row blocks (the first input and the output) at
    block row `t`, block column 0; every other window at block (0, 0) — its one block is its whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is the block of `G0` of the entry contents at point `t`'s place in the output array:
    the body's stored value at entry (p, q) of the block is `G0` at array entry (5000 · t + p, q). -/
theorem flushed_eq0 (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e00, e01, e10, e11, e20, e21⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q) = G0 (V c main_arg0) (V c main_arg2) (((cfg0.win 2).blk t).view.emb (ix2 p q))
  refine (Payloads.pay0_apply (iblk0 V c 0 t) (iblk0 V c 1 t) p q).trans ?_
  unfold G0 Cert.Spec.lin
  refine Finset.sum_congr rfl fun k _ => ?_
  -- the row block's entry (p, k) is the array's entry (row of the output entry, k)
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  -- the weight's block is the whole weight: entry (k, q) is entry (k, column of the output entry)
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [h0, h1]

/-- The output block at point `t` is the rectangle of the array whose coordinate on each axis runs over one block's
    extent from the block's offset: rows 5000 · t … 5000 · t + 4999, every column. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The twenty output blocks tile the array: entry (r, q) is in the block of point r / 5000, and every point writes
    its block back. -/
theorem cover0 (i : S100000x64.Idx) : ∃ t : Fin cfg0.N, (cfg0.win 2).flush t = true ∧ i ∈ ((cfg0.win 2).blk t).view.set := by
  have hN : grid0.N = 20 := N_0
  have hi0 : (i 0).val < 100000 := (i 0).isLt
  have hi1 : (i 1).val < 64 := (i 1).isLt
  let t : Fin cfg0.N := ⟨(i 0).val / 5000, by show (i 0).val / 5000 < grid0.N; omega⟩
  obtain ⟨e00, e01, e10, e11, e20, e21⟩ := idx_facts0 t
  have ht : (t : Nat) = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the grid the output array of region 0 is `G0` of the region's entry contents, whole. -/
theorem arr0 (c : Dev nD) : (dat0 V c).arrAt 2 cfg0.N = G0 (V c main_arg0) (V c main_arg2) :=
  (dat0 V c).arrAt_eq_of_cover 2 (G0 (V c main_arg0) (V c main_arg2)) (fun t _ => flushed_eq0 V c t) cover0

/-! ## Region 1: the output array `main_v45` after the grid -/

/-- Where each window's block sits at grid point `t`, in blocks: the row blocks (the first input and the output) at
    block row `t`, block column 0; every other window at block (0, 0) — its one block is its whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is the block of `G1` of the entry contents at point `t`'s place in the output array:
    the body's stored value at entry (p, q) of the block is `G1` at array entry (5000 · t + p, q). -/
theorem flushed_eq1 (c : Dev nD) (t : Fin cfg1.N) :
    (dat1 V c).flushed 3 t = ((cfg1.win 3).blk t).view.read (Elt Ideal) (G1 (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  obtain ⟨e00, e01, e10, e11, e20, e21, e30, e31⟩ := idx_facts1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q) = G1 (V c main_v43) (V c main_v44) (V c main_arg4) (((cfg1.win 3).blk t).view.emb (ix2 p q))
  refine (Payloads.pay1_apply (iblk1 V c 0 t) (iblk1 V c 1 t) (iblk1 V c 2 t) p q).trans ?_
  unfold G1
  refine Finset.sum_congr rfl fun k _ => ?_
  -- the row block's entry (p, k) is the array's entry (row of the output entry, k)
  have h0 : iblk1 V c 0 t (ix2 p k) = V c main_v43 (ix2 ((((cfg1.win 3).blk t).view.emb (ix2 p q)) 0) k) := by
    show V c main_v43 (((cfg1.win 0).blk t).view.emb (ix2 p k)) = _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  -- the bias row's block is the whole row: entry (0, k) is entry (0, k)
  have hb : iblk1 V c 1 t (ix2 (0 : Fin 1) k) = V c main_v44 (ix2 (0 : Fin 1) k) := by
    show V c main_v44 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  -- the weight's block is the whole weight: entry (k, q) is entry (k, column of the output entry)
  have h2 : iblk1 V c 2 t (ix2 k q) = V c main_arg4 (ix2 k ((((cfg1.win 3).blk t).view.emb (ix2 p q)) 1)) := by
    show V c main_arg4 (((cfg1.win 2).blk t).view.emb (ix2 k q)) = _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  rw [h0, hb, h2]

/-- The output block at point `t` is the rectangle of the array whose coordinate on each axis runs over one block's
    extent from the block's offset: rows 5000 · t … 5000 · t + 4999, every column. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- The twenty output blocks tile the array: entry (r, q) is in the block of point r / 5000, and every point writes
    its block back. -/
theorem cover1 (i : S100000x64.Idx) : ∃ t : Fin cfg1.N, (cfg1.win 3).flush t = true ∧ i ∈ ((cfg1.win 3).blk t).view.set := by
  have hN : grid1.N = 20 := N_1
  have hi0 : (i 0).val < 100000 := (i 0).isLt
  have hi1 : (i 1).val < 64 := (i 1).isLt
  let t : Fin cfg1.N := ⟨(i 0).val / 5000, by show (i 0).val / 5000 < grid1.N; omega⟩
  obtain ⟨e00, e01, e10, e11, e20, e21, e30, e31⟩ := idx_facts1 t
  have ht : (t : Nat) = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the grid the output array of region 1 is `G1` of the region's entry contents, whole. -/
theorem arr1 (c : Dev nD) : (dat1 V c).arrAt 3 cfg1.N = G1 (V c main_v43) (V c main_v44) (V c main_arg4) :=
  (dat1 V c).arrAt_eq_of_cover 3 (G1 (V c main_v43) (V c main_v44) (V c main_arg4)) (fun t _ => flushed_eq1 V c t) cover1

/-! ## Region 2: the output array `main_v60` after the grid -/

/-- Where each window's block sits at grid point `t`, in blocks: the row blocks (the first input and the output) at
    block row `t`, block column 0; every other window at block (0, 0) — its one block is its whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is the block of `G2` of the entry contents at point `t`'s place in the output array:
    the body's stored value at entry (p, q) of the block is `G2` at array entry (5000 · t + p, q). -/
theorem flushed_eq2 (c : Dev nD) (t : Fin cfg2.N) :
    (dat2 V c).flushed 3 t = ((cfg2.win 3).blk t).view.read (Elt Ideal) (G2 (V c main_v58) (V c main_v59) (V c main_arg6)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x32) hz]
  obtain ⟨e00, e01, e10, e11, e20, e21, e30, e31⟩ := idx_facts2 t
  funext j
  obtain ⟨p, q, rfl⟩ : ∃ (p : Fin 5000) (q : Fin 32), j = ix2 p q := ⟨j 0, j 1, eq_ix2 j⟩
  show k2_pay1 (F := Ideal) (iblk2 V c 0 t) (iblk2 V c 1 t) (iblk2 V c 2 t) (ix2 p q) = G2 (V c main_v58) (V c main_v59) (V c main_arg6) (((cfg2.win 3).blk t).view.emb (ix2 p q))
  refine (Payloads.pay2_apply (iblk2 V c 0 t) (iblk2 V c 1 t) (iblk2 V c 2 t) p q).trans ?_
  unfold G2
  refine Finset.sum_congr rfl fun k _ => ?_
  -- the row block's entry (p, k) is the array's entry (row of the output entry, k)
  have h0 : iblk2 V c 0 t (ix2 p k) = V c main_v58 (ix2 ((((cfg2.win 3).blk t).view.emb (ix2 p q)) 0) k) := by
    show V c main_v58 (((cfg2.win 0).blk t).view.emb (ix2 p k)) = _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  -- the bias row's block is the whole row: entry (0, k) is entry (0, k)
  have hb : iblk2 V c 1 t (ix2 (0 : Fin 1) k) = V c main_v59 (ix2 (0 : Fin 1) k) := by
    show V c main_v59 (((cfg2.win 1).blk t).view.emb (ix2 (0 : Fin 1) k)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  -- the weight's block is the whole weight: entry (k, q) is entry (k, column of the output entry)
  have h2 : iblk2 V c 2 t (ix2 k q) = V c main_arg6 (ix2 k ((((cfg2.win 3).blk t).view.emb (ix2 p q)) 1)) := by
    show V c main_arg6 (((cfg2.win 2).blk t).view.emb (ix2 k q)) = _
    refine congrArg _ (funext fun a => Fin.ext ?_)
    match a with
    | ⟨0, _⟩ => show win2_2.index t (0 : Fin 2) * 64 + 1 * k.val = k.val; omega
    | ⟨1, _⟩ => show win2_2.index t (1 : Fin 2) * 32 + 1 * q.val = win2_3.index t (1 : Fin 2) * 32 + 1 * q.val; omega
  rw [h0, hb, h2]

/-- The output block at point `t` is the rectangle of the array whose coordinate on each axis runs over one block's
    extent from the block's offset: rows 5000 · t … 5000 · t + 4999, every column. -/
theorem mem_blk2 (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v60).slice (win2_3.rect t)).set ↔ _
  rw [View.set_slice_whole, Rect.mem_set_unit]
  exact Iff.rfl

/-- The twenty output blocks tile the array: entry (r, q) is in the block of point r / 5000, and every point writes
    its block back. -/
theorem cover2 (i : S100000x32.Idx) : ∃ t : Fin cfg2.N, (cfg2.win 3).flush t = true ∧ i ∈ ((cfg2.win 3).blk t).view.set := by
  have hN : grid2.N = 20 := N_2
  have hi0 : (i 0).val < 100000 := (i 0).isLt
  have hi1 : (i 1).val < 32 := (i 1).isLt
  let t : Fin cfg2.N := ⟨(i 0).val / 5000, by show (i 0).val / 5000 < grid2.N; omega⟩
  obtain ⟨e00, e01, e10, e11, e20, e21, e30, e31⟩ := idx_facts2 t
  have ht : (t : Nat) = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- After the grid the output array of region 2 is `G2` of the region's entry contents, whole. -/
theorem arr2 (c : Dev nD) : (dat2 V c).arrAt 3 cfg2.N = G2 (V c main_v58) (V c main_v59) (V c main_arg6) :=
  (dat2 V c).arrAt_eq_of_cover 3 (G2 (V c main_v58) (V c main_v59) (V c main_arg6)) (fun t _ => flushed_eq2 V c t) cover2

/-! ## Region 3: the output array `main_v75` after the grid -/

/-- Where each window's block sits at grid point `t`, in blocks: the row blocks (the first input and the output) at
    block row `t`, block column 0; every other window at block (0, 0) — its one block is its whole array. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is the block of `G3` of the entry contents at point `t`'s place in the output array:
    the body's stored value at entry (p, q) of the block is `G3` at array entry (5000 · t + p, q). -/
theorem flushed_eq3 (c : Dev nD) (t : Fin cfg3.N) :
    (dat3 V c).flushed 2 t = ((cfg3.win 2).blk t).view.read (Elt Ideal) (G3 (V c main_v73) (V c main_v74)) := by
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  obtain ⟨e00, e01, e10, e11, e20, e21⟩ := idx_facts3 t
  funext j
  obtain ⟨p, q, rfl⟩ : ∃ (p : Fin 5000) (q : Fin 32), j = ix2 p q := ⟨j 0, j 1, eq_ix2 j⟩
  show k3_pay1 (F := Ideal) (iblk3 V c 0 t) (iblk3 V c 1 t) (ix2 p q) = G3 (V c main_v73) (V c main_v74) (((cfg3.win 2).blk t).view.emb (ix2 p q))
  refine (Payloads.pay3_apply (iblk3 V c 0 t) (iblk3 V c 1 t) p q).trans ?_
  unfold G3
  -- the input row block and the output row block sit at the same rows of their arrays
  have h0 : iblk3 V c 0 t (ix2 p q) = V c main_v73 (((cfg3.win 2).blk t).view.emb (ix2 p q)) := by
    show V c main_v73 (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 32 + 1 * q.val = win3_2.index t (1 : Fin 2) * 32 + 1 * q.val; omega
  -- the bias row's block is the whole row: entry (0, q) is entry (0, column of the output entry)
  have hb : iblk3 V c 1 t (ix2 (0 : Fin 1) q) = V c main_v74 (ix2 (0 : Fin 1) ((((cfg3.win 2).blk t).view.emb (ix2 p q)) 1)) := by
    show V c main_v74 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [h0, hb]

/-- The output block at point `t` is the rectangle of the array whose coordinate on each axis runs over one block's
    extent from the block's offset: rows 5000 · t … 5000 · t + 4999, every column. -/
theorem mem_blk3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v75).slice (win3_2.rect t)).set ↔ _
  rw [View.set_slice_whole, Rect.mem_set_unit]
  exact Iff.rfl

/-- The twenty output blocks tile the array: entry (r, q) is in the block of point r / 5000, and every point writes
    its block back. -/
theorem cover3 (i : S100000x32.Idx) : ∃ t : Fin cfg3.N, (cfg3.win 2).flush t = true ∧ i ∈ ((cfg3.win 2).blk t).view.set := by
  have hN : grid3.N = 20 := N_3
  have hi0 : (i 0).val < 100000 := (i 0).isLt
  have hi1 : (i 1).val < 32 := (i 1).isLt
  let t : Fin cfg3.N := ⟨(i 0).val / 5000, by show (i 0).val / 5000 < grid3.N; omega⟩
  obtain ⟨e00, e01, e10, e11, e20, e21⟩ := idx_facts3 t
  have ht : (t : Nat) = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- After the grid the output array of region 3 is `G3` of the region's entry contents, whole. -/
theorem arr3 (c : Dev nD) : (dat3 V c).arrAt 2 cfg3.N = G3 (V c main_v73) (V c main_v74) :=
  (dat3 V c).arrAt_eq_of_cover 2 (G3 (V c main_v73) (V c main_v74)) (fun t _ => flushed_eq3 V c t) cover3

end Cert.KernelIdeal.Blocks

end
-- ==== Proof.Fold.lean ====
/-
  The kernel's buffers at each boundary of its run, read back to the reference's stages.

  The kernel program is a host prelude (self-loops appended to the edge list, the degree count, the symmetric
  normaliser of every edge), then four regions with a gather / scale / scatter-add stretch of host operations before
  each of the last three. The reference computes the same prelude and the same three aggregation stretches, operation for
  operation, and differs only where the kernel runs a region: a whole-array matrix product for region 0, a bias, a
  rectifier and a matrix product for regions 1 and 2, a bias for region 3. So the run is followed boundary by boundary:
  at each one, every buffer a later stage reads holds the reference's stage of the same name (`val_main_vN` of the
  arguments). The host stretches are equal as terms once their inputs are; the regions are equal entry by entry, by the
  block reading of each region's output array and the reference's reading of its product and bias stages.
-/
import proofs.«166058_j6794638262379_1_alg».proof.Proof.Gen.KernelIdeal.Frame
import proofs.«166058_j6794638262379_1_alg».proof.Proof.RefReadP
import proofs.«166058_j6794638262379_1_alg».proof.Proof.RefStages
import proofs.«166058_j6794638262379_1_alg».proof.Proof.Blocks
import proofs.«166058_j6794638262379_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Fold

open Idealize.ShloMosaic Idealize.ShloMosaic.TcCoe Idealize.ShloMosaic.StableHlo Idealize.ShloMosaic.ValueIdx
open Idealize.SL Idealize.SL.Sem
open Cert.KernelIdeal Cert.KernelIdeal.Gen
open Cert.ReferenceIdeal.Read Cert.ReferenceIdeal.RefStages

variable (m : (ℓ : Loc nD τ sig) → Buf (Elt Ideal) ℓ) (ρ : Dev nD → PrngReg) (c : Dev nD)

/-! ## The argument arrays as launched -/

abbrev A0 : (⟨S100000x64, .f32⟩ : BufTy).Contents (Elt Ideal) := m ((c.tc : Thread nD τ).loc main_arg0)
abbrev A1 : (⟨S2x1600000, .i32⟩ : BufTy).Contents (Elt Ideal) := m ((c.tc : Thread nD τ).loc main_arg1)
abbrev A2 : (⟨S64x64, .f32⟩ : BufTy).Contents (Elt Ideal) := m ((c.tc : Thread nD τ).loc main_arg2)
abbrev A3 : (⟨S64, .f32⟩ : BufTy).Contents (Elt Ideal) := m ((c.tc : Thread nD τ).loc main_arg3)
abbrev A4 : (⟨S64x64, .f32⟩ : BufTy).Contents (Elt Ideal) := m ((c.tc : Thread nD τ).loc main_arg4)
abbrev A5 : (⟨S64, .f32⟩ : BufTy).Contents (Elt Ideal) := m ((c.tc : Thread nD τ).loc main_arg5)
abbrev A6 : (⟨S64x32, .f32⟩ : BufTy).Contents (Elt Ideal) := m ((c.tc : Thread nD τ).loc main_arg6)
abbrev A7 : (⟨S32, .f32⟩ : BufTy).Contents (Elt Ideal) := m ((c.tc : Thread nD τ).loc main_arg7)

/-! ## A typed reference's transport, and its four instances here

  A function the program calls is printed over typed references, whose contents are carried to the buffer's own type
  and back. Each transport is along an equation of buffer types that holds by computation, so on any contents it is the
  identity; stated one at a time on arbitrary contents each is immediate, and the call's result is read by rewriting
  with them rather than by one comparison of the whole term. -/

theorem ofBuf_toBuf' {sg : RefSig} {Val : EltTy → Type} {T : BufTy} (x : TRef sg T) (v : T.Contents Val) :
    x.ofBuf (Val := Val) (x.toBuf v) = v := by
  obtain ⟨r, h, h2, h3⟩ := x
  subst h
  rfl

theorem toBuf_eq_iff {sg : RefSig} {Val : EltTy → Type} {T : BufTy} (x : TRef sg T) (v : T.Contents Val)
    (w : x.ref.ty.Contents Val) : x.toBuf v = w ↔ v = x.ofBuf w := by
  obtain ⟨r, h, h2, h3⟩ := x
  subst h
  exact Iff.rfl

theorem ofBuf_v12 (p : (⟨S100000, .i1⟩ : BufTy).Contents (Elt Ideal)) :
    (TRef.of (T := ⟨S100000, .i1⟩) main_v12).ofBuf (Val := Elt Ideal) p = p := rfl

theorem ofBuf_v13 (p : (⟨S100000, .f32⟩ : BufTy).Contents (Elt Ideal)) :
    (TRef.of (T := ⟨S100000, .f32⟩) main_v13).ofBuf (Val := Elt Ideal) p = p := rfl

theorem ofBuf_cst_2 (p : (⟨S_, .f32⟩ : BufTy).Contents (Elt Ideal)) :
    (TRef.of (T := ⟨S_, .f32⟩) main_cst_2).ofBuf (Val := Elt Ideal) p = p := rfl

theorem ofBuf_v14 (p : (⟨S100000, .f32⟩ : BufTy).Contents (Elt Ideal)) :
    (TRef.of (T := ⟨S100000, .f32⟩) main_v14).ofBuf (Val := Elt Ideal) p = p := rfl

/-! ## Region 0's entry: the prelude's stages, and the arguments untouched -/

theorem W3_arg0 : W3 m ρ c (Proc.devRef .tc main_arg0) = A0 m c := by
  show StableHlo.after hostOps0_2 (StableHlo.after hostOps0_1 (StableHlo.after hostOps0 (W0 m ρ c))) (Proc.devRef .tc main_arg0) = _
  after_results

theorem W3_arg2 : W3 m ρ c (Proc.devRef .tc main_arg2) = A2 m c := by
  show StableHlo.after hostOps0_2 (StableHlo.after hostOps0_1 (StableHlo.after hostOps0 (W0 m ρ c))) (Proc.devRef .tc main_arg2) = _
  after_results

theorem W3_arg3 : W3 m ρ c (Proc.devRef .tc main_arg3) = A3 m c := by
  show StableHlo.after hostOps0_2 (StableHlo.after hostOps0_1 (StableHlo.after hostOps0 (W0 m ρ c))) (Proc.devRef .tc main_arg3) = _
  after_results

theorem W3_arg4 : W3 m ρ c (Proc.devRef .tc main_arg4) = A4 m c := by
  show StableHlo.after hostOps0_2 (StableHlo.after hostOps0_1 (StableHlo.after hostOps0 (W0 m ρ c))) (Proc.devRef .tc main_arg4) = _
  after_results

theorem W3_arg5 : W3 m ρ c (Proc.devRef .tc main_arg5) = A5 m c := by
  show StableHlo.after hostOps0_2 (StableHlo.after hostOps0_1 (StableHlo.after hostOps0 (W0 m ρ c))) (Proc.devRef .tc main_arg5) = _
  after_results

theorem W3_arg6 : W3 m ρ c (Proc.devRef .tc main_arg6) = A6 m c := by
  show StableHlo.after hostOps0_2 (StableHlo.after hostOps0_1 (StableHlo.after hostOps0 (W0 m ρ c))) (Proc.devRef .tc main_arg6) = _
  after_results

theorem W3_arg7 : W3 m ρ c (Proc.devRef .tc main_arg7) = A7 m c := by
  show StableHlo.after hostOps0_2 (StableHlo.after hostOps0_1 (StableHlo.after hostOps0 (W0 m ρ c))) (Proc.devRef .tc main_arg7) = _
  after_results

set_option maxHeartbeats 4000000 in
theorem W3_v3 : W3 m ρ c (Proc.devRef .tc main_v3) = val_main_v3 (F := Ideal) (A1 m c) := by
  show StableHlo.after hostOps0_2 (StableHlo.after hostOps0_1 (StableHlo.after hostOps0 (W0 m ρ c))) (Proc.devRef .tc main_v3) = _
  after_results_simp <;> rfl

set_option maxHeartbeats 4000000 in
theorem W3_v6 : W3 m ρ c (Proc.devRef .tc main_v6) = val_main_v6 (F := Ideal) (A1 m c) := by
  show StableHlo.after hostOps0_2 (StableHlo.after hostOps0_1 (StableHlo.after hostOps0 (W0 m ρ c))) (Proc.devRef .tc main_v6) = _
  after_results_simp <;> rfl

set_option maxHeartbeats 4000000 in
theorem W2_v3 : W2 m ρ c (Proc.devRef .tc main_v3) = val_main_v3 (F := Ideal) (A1 m c) := by
  show StableHlo.after hostOps0_1 (StableHlo.after hostOps0 (W0 m ρ c)) (Proc.devRef .tc main_v3) = _
  after_results_simp <;> rfl

set_option maxHeartbeats 4000000 in
theorem W2_v6 : W2 m ρ c (Proc.devRef .tc main_v6) = val_main_v6 (F := Ideal) (A1 m c) := by
  show StableHlo.after hostOps0_1 (StableHlo.after hostOps0 (W0 m ρ c)) (Proc.devRef .tc main_v6) = _
  after_results_simp <;> rfl

set_option maxHeartbeats 4000000 in
/-- The degree count's comparison against zero. -/
theorem W1_v12 : W1 m ρ c (Proc.devRef .tc main_v12) = val_main_v12 (F := Ideal) (A1 m c) := by
  show StableHlo.after hostOps0 (W0 m ρ c) (Proc.devRef .tc main_v12) = _
  after_results_simp <;> rfl

set_option maxHeartbeats 4000000 in
/-- The degree count's inverse square root. -/
theorem W1_v13 : W1 m ρ c (Proc.devRef .tc main_v13) = val_main_v13 (F := Ideal) (A1 m c) := by
  show StableHlo.after hostOps0 (W0 m ρ c) (Proc.devRef .tc main_v13) = _
  after_results_simp <;> rfl

theorem W1_cst_2 : W1 m ρ c (Proc.devRef .tc main_cst_2) = val_main_cst_2 (F := Ideal) := by
  show StableHlo.after hostOps0 (W0 m ρ c) (Proc.devRef .tc main_cst_2) = _
  after_results_simp <;> rfl

/-- The per-node normaliser: the inverse square root of the degree where the degree is positive, zero elsewhere. -/
theorem W2_v14 : W2 m ρ c (Proc.devRef .tc main_v14) = val_main_v14 (F := Ideal) (A1 m c) := by
  show StableHlo.after hostOps0_1 (W1 m ρ c) (Proc.devRef .tc main_v14) = _
  generalize hY : W1 m ρ c = Y
  after_results_simp
  subst hY
  rw [W1_v12, W1_v13, W1_cst_2, toBuf_eq_iff]
  simp only [ofBuf_toBuf']
  rw [ofBuf_v12, ofBuf_v13, ofBuf_cst_2, ofBuf_v14]
  rfl

set_option maxHeartbeats 4000000 in
/-- The per-edge normaliser: the product of the two endpoints' normalisers, each gathered at the edge's wrapped index. -/
theorem W3_v29 : W3 m ρ c (Proc.devRef .tc main_v29) = val_main_v29 (F := Ideal) (A1 m c) := by
  show StableHlo.after hostOps0_2 (W2 m ρ c) (Proc.devRef .tc main_v29) = _
  generalize hX : W2 m ρ c = X
  after_results_simp
  subst hX
  rw [W2_v3, W2_v6, W2_v14]
  rfl

/-! ## Carried across a region or a host stretch that does not write them -/

theorem W4_v3 : W4 m ρ c (Proc.devRef .tc main_v3) = val_main_v3 (F := Ideal) (A1 m c) :=
  (W4_of_ne m ρ c main_v3 (by decide)).trans (W3_v3 m ρ c)
theorem W5_v3 : W5 m ρ c (Proc.devRef .tc main_v3) = val_main_v3 (F := Ideal) (A1 m c) := by
  have h : StableHlo.after hostOps1 (W4 m ρ c) (Proc.devRef .tc main_v3) = W4 m ρ c (Proc.devRef .tc main_v3) := by after_results
  exact h.trans (W4_v3 m ρ c)
theorem W6_v3 : W6 m ρ c (Proc.devRef .tc main_v3) = val_main_v3 (F := Ideal) (A1 m c) :=
  (W6_of_ne m ρ c main_v3 (by decide)).trans (W5_v3 m ρ c)
theorem W7_v3 : W7 m ρ c (Proc.devRef .tc main_v3) = val_main_v3 (F := Ideal) (A1 m c) := by
  have h : StableHlo.after hostOps2 (W6 m ρ c) (Proc.devRef .tc main_v3) = W6 m ρ c (Proc.devRef .tc main_v3) := by after_results
  exact h.trans (W6_v3 m ρ c)
theorem W8_v3 : W8 m ρ c (Proc.devRef .tc main_v3) = val_main_v3 (F := Ideal) (A1 m c) :=
  (W8_of_ne m ρ c main_v3 (by decide)).trans (W7_v3 m ρ c)

theorem W4_v6 : W4 m ρ c (Proc.devRef .tc main_v6) = val_main_v6 (F := Ideal) (A1 m c) :=
  (W4_of_ne m ρ c main_v6 (by decide)).trans (W3_v6 m ρ c)
theorem W5_v6 : W5 m ρ c (Proc.devRef .tc main_v6) = val_main_v6 (F := Ideal) (A1 m c) := by
  have h : StableHlo.after hostOps1 (W4 m ρ c) (Proc.devRef .tc main_v6) = W4 m ρ c (Proc.devRef .tc main_v6) := by after_results
  exact h.trans (W4_v6 m ρ c)
theorem W6_v6 : W6 m ρ c (Proc.devRef .tc main_v6) = val_main_v6 (F := Ideal) (A1 m c) :=
  (W6_of_ne m ρ c main_v6 (by decide)).trans (W5_v6 m ρ c)
theorem W7_v6 : W7 m ρ c (Proc.devRef .tc main_v6) = val_main_v6 (F := Ideal) (A1 m c) := by
  have h : StableHlo.after hostOps2 (W6 m ρ c) (Proc.devRef .tc main_v6) = W6 m ρ c (Proc.devRef .tc main_v6) := by after_results
  exact h.trans (W6_v6 m ρ c)
theorem W8_v6 : W8 m ρ c (Proc.devRef .tc main_v6) = val_main_v6 (F := Ideal) (A1 m c) :=
  (W8_of_ne m ρ c main_v6 (by decide)).trans (W7_v6 m ρ c)

theorem W4_v29 : W4 m ρ c (Proc.devRef .tc main_v29) = val_main_v29 (F := Ideal) (A1 m c) :=
  (W4_of_ne m ρ c main_v29 (by decide)).trans (W3_v29 m ρ c)
theorem W5_v29 : W5 m ρ c (Proc.devRef .tc main_v29) = val_main_v29 (F := Ideal) (A1 m c) := by
  have h : StableHlo.after hostOps1 (W4 m ρ c) (Proc.devRef .tc main_v29) = W4 m ρ c (Proc.devRef .tc main_v29) := by after_results
  exact h.trans (W4_v29 m ρ c)
theorem W6_v29 : W6 m ρ c (Proc.devRef .tc main_v29) = val_main_v29 (F := Ideal) (A1 m c) :=
  (W6_of_ne m ρ c main_v29 (by decide)).trans (W5_v29 m ρ c)
theorem W7_v29 : W7 m ρ c (Proc.devRef .tc main_v29) = val_main_v29 (F := Ideal) (A1 m c) := by
  have h : StableHlo.after hostOps2 (W6 m ρ c) (Proc.devRef .tc main_v29) = W6 m ρ c (Proc.devRef .tc main_v29) := by after_results
  exact h.trans (W6_v29 m ρ c)
theorem W8_v29 : W8 m ρ c (Proc.devRef .tc main_v29) = val_main_v29 (F := Ideal) (A1 m c) :=
  (W8_of_ne m ρ c main_v29 (by decide)).trans (W7_v29 m ρ c)

theorem W4_arg3 : W4 m ρ c (Proc.devRef .tc main_arg3) = A3 m c :=
  (W4_of_ne m ρ c main_arg3 (by decide)).trans (W3_arg3 m ρ c)

theorem W4_arg4 : W4 m ρ c (Proc.devRef .tc main_arg4) = A4 m c :=
  (W4_of_ne m ρ c main_arg4 (by decide)).trans (W3_arg4 m ρ c)
theorem W5_arg4 : W5 m ρ c (Proc.devRef .tc main_arg4) = A4 m c := by
  have h : StableHlo.after hostOps1 (W4 m ρ c) (Proc.devRef .tc main_arg4) = W4 m ρ c (Proc.devRef .tc main_arg4) := by after_results
  exact h.trans (W4_arg4 m ρ c)

theorem W4_arg5 : W4 m ρ c (Proc.devRef .tc main_arg5) = A5 m c :=
  (W4_of_ne m ρ c main_arg5 (by decide)).trans (W3_arg5 m ρ c)
theorem W5_arg5 : W5 m ρ c (Proc.devRef .tc main_arg5) = A5 m c := by
  have h : StableHlo.after hostOps1 (W4 m ρ c) (Proc.devRef .tc main_arg5) = W4 m ρ c (Proc.devRef .tc main_arg5) := by after_results
  exact h.trans (W4_arg5 m ρ c)
theorem W6_arg5 : W6 m ρ c (Proc.devRef .tc main_arg5) = A5 m c :=
  (W6_of_ne m ρ c main_arg5 (by decide)).trans (W5_arg5 m ρ c)

theorem W4_arg6 : W4 m ρ c (Proc.devRef .tc main_arg6) = A6 m c :=
  (W4_of_ne m ρ c main_arg6 (by decide)).trans (W3_arg6 m ρ c)
theorem W5_arg6 : W5 m ρ c (Proc.devRef .tc main_arg6) = A6 m c := by
  have h : StableHlo.after hostOps1 (W4 m ρ c) (Proc.devRef .tc main_arg6) = W4 m ρ c (Proc.devRef .tc main_arg6) := by after_results
  exact h.trans (W4_arg6 m ρ c)
theorem W6_arg6 : W6 m ρ c (Proc.devRef .tc main_arg6) = A6 m c :=
  (W6_of_ne m ρ c main_arg6 (by decide)).trans (W5_arg6 m ρ c)
theorem W7_arg6 : W7 m ρ c (Proc.devRef .tc main_arg6) = A6 m c := by
  have h : StableHlo.after hostOps2 (W6 m ρ c) (Proc.devRef .tc main_arg6) = W6 m ρ c (Proc.devRef .tc main_arg6) := by after_results
  exact h.trans (W6_arg6 m ρ c)

theorem W4_arg7 : W4 m ρ c (Proc.devRef .tc main_arg7) = A7 m c :=
  (W4_of_ne m ρ c main_arg7 (by decide)).trans (W3_arg7 m ρ c)
theorem W5_arg7 : W5 m ρ c (Proc.devRef .tc main_arg7) = A7 m c := by
  have h : StableHlo.after hostOps1 (W4 m ρ c) (Proc.devRef .tc main_arg7) = W4 m ρ c (Proc.devRef .tc main_arg7) := by after_results
  exact h.trans (W4_arg7 m ρ c)
theorem W6_arg7 : W6 m ρ c (Proc.devRef .tc main_arg7) = A7 m c :=
  (W6_of_ne m ρ c main_arg7 (by decide)).trans (W5_arg7 m ρ c)
theorem W7_arg7 : W7 m ρ c (Proc.devRef .tc main_arg7) = A7 m c := by
  have h : StableHlo.after hostOps2 (W6 m ρ c) (Proc.devRef .tc main_arg7) = W6 m ρ c (Proc.devRef .tc main_arg7) := by after_results
  exact h.trans (W6_arg7 m ρ c)
theorem W8_arg7 : W8 m ρ c (Proc.devRef .tc main_arg7) = A7 m c :=
  (W8_of_ne m ρ c main_arg7 (by decide)).trans (W7_arg7 m ρ c)

/-! ## The bias rows: a vector viewed as a one-row matrix reads, at (0, k), the vector at k -/

theorem row_of_vec {n : ℕ} {α : Type} (v : (⟨1, ![n]⟩ : Shape).Idx → α) (h : (⟨1, ![n]⟩ : Shape).ShapeCasts ⟨2, ![1, n]⟩)
    (k : Fin n) : shapeCast ⟨2, ![1, n]⟩ v h (ix2 (0 : Fin 1) k) = v (ix1 k) := by
  refine (shapeCast_addUnit_apply (n := 1) ![n] v h (ix2 (0 : Fin 1) k)).trans (congrArg v ?_)
  funext a
  match a with
  | ⟨0, _⟩ => rfl

/-! ## Region 0: the first layer's product -/

/-- Region 0 leaves in its output array the product of the node features with the first weight: the reference's
    `dot_general`, entry by entry the sum over k of x(r, k) · w(k, q). -/
theorem W4_v30 : W4 m ρ c (Proc.devRef .tc main_v30) = val_main_v30 (F := Ideal) (A0 m c) (A2 m c) := by
  refine (W4_arr m ρ c 2).trans ?_
  rw [Cert.KernelIdeal.Blocks.arr0 (V3 m ρ) c]
  rw [show V3 m ρ c main_arg0 = A0 m c from W3_arg0 m ρ c, show V3 m ρ c main_arg2 = A2 m c from W3_arg2 m ρ c]
  funext i
  obtain ⟨r, q, rfl⟩ : ∃ (r : Fin 100000) (q : Fin 64), i = ix2 r q := ⟨i 0, i 1, eq_ix2 i⟩
  rw [ref30_apply]
  rfl

/-! ## The first aggregation, and region 1 -/

set_option maxHeartbeats 4000000 in
/-- The gather / scale / scatter-add stretch before region 1 is the reference's, operation for operation, on equal inputs. -/
theorem V5_v43 : V5 m ρ c main_v43 = val_main_v43 (F := Ideal) (A0 m c) (A1 m c) (A2 m c) := by
  show StableHlo.after hostOps1 (W4 m ρ c) (Proc.devRef .tc main_v43) = _
  after_results_simp
  rw [W4_v30, W4_v3, W4_v6, W4_v29]
  rfl

theorem V5_v44_apply (k : Fin 64) : V5 m ρ c main_v44 (ix2 (0 : Fin 1) k) = A3 m c (ix1 k) := by
  have e : V5 m ρ c main_v44 = shapeCast S1x64 (W4 m ρ c (Proc.devRef .tc main_arg3)) shapeCasts_S64_S1x64 := by
    show StableHlo.after hostOps1 (W4 m ρ c) (Proc.devRef .tc main_v44) = _
    after_results
    rfl
  rw [e, W4_arg3]
  exact row_of_vec (A3 m c) shapeCasts_S64_S1x64 k

theorem V5_arg4 : V5 m ρ c main_arg4 = A4 m c := W5_arg4 m ρ c

/-- Region 1 leaves relu(aggregate + bias) · weight: the reference's second `dot_general` over its bias and rectifier stages. -/
theorem W6_v45 : W6 m ρ c (Proc.devRef .tc main_v45) = val_main_v48 (F := Ideal) (A0 m c) (A1 m c) (A2 m c) (A3 m c) (A4 m c) := by
  refine (W6_arr m ρ c 3).trans ?_
  rw [Cert.KernelIdeal.Blocks.arr1 (V5 m ρ) c, V5_v43, V5_arg4]
  funext i
  obtain ⟨r, q, rfl⟩ : ∃ (r : Fin 100000) (q : Fin 64), i = ix2 r q := ⟨i 0, i 1, eq_ix2 i⟩
  rw [ref48_apply]
  unfold Cert.KernelIdeal.Blocks.G1 Cert.Spec.brl
  refine Finset.sum_congr rfl fun k _ => ?_
  rw [V5_v44_apply]

/-! ## The second aggregation, and region 2 -/

set_option maxHeartbeats 4000000 in
theorem V7_v58 : V7 m ρ c main_v58 = val_main_v61 (F := Ideal) (A0 m c) (A1 m c) (A2 m c) (A3 m c) (A4 m c) := by
  show StableHlo.after hostOps2 (W6 m ρ c) (Proc.devRef .tc main_v58) = _
  after_results_simp
  rw [W6_v45, W6_v3, W6_v6, W6_v29]
  rfl

theorem V7_v59_apply (k : Fin 64) : V7 m ρ c main_v59 (ix2 (0 : Fin 1) k) = A5 m c (ix1 k) := by
  have e : V7 m ρ c main_v59 = shapeCast S1x64 (W6 m ρ c (Proc.devRef .tc main_arg5)) shapeCasts_S64_S1x64 := by
    show StableHlo.after hostOps2 (W6 m ρ c) (Proc.devRef .tc main_v59) = _
    after_results
    rfl
  rw [e, W6_arg5]
  exact row_of_vec (A5 m c) shapeCasts_S64_S1x64 k

theorem V7_arg6 : V7 m ρ c main_arg6 = A6 m c := W7_arg6 m ρ c

theorem W8_v60 : W8 m ρ c (Proc.devRef .tc main_v60) = val_main_v66 (F := Ideal) (A0 m c) (A1 m c) (A2 m c) (A3 m c) (A4 m c) (A5 m c) (A6 m c) := by
  refine (W8_arr m ρ c 3).trans ?_
  rw [Cert.KernelIdeal.Blocks.arr2 (V7 m ρ) c, V7_v58, V7_arg6]
  funext i
  obtain ⟨r, q, rfl⟩ : ∃ (r : Fin 100000) (q : Fin 32), i = ix2 r q := ⟨i 0, i 1, eq_ix2 i⟩
  rw [ref66_apply]
  unfold Cert.KernelIdeal.Blocks.G2 Cert.Spec.brl
  refine Finset.sum_congr rfl fun k _ => ?_
  rw [V7_v59_apply]

/-! ## The third aggregation, and region 3 -/

set_option maxHeartbeats 4000000 in
theorem V9_v73 : V9 m ρ c main_v73 = val_main_v79 (F := Ideal) (A0 m c) (A1 m c) (A2 m c) (A3 m c) (A4 m c) (A5 m c) (A6 m c) := by
  show StableHlo.after hostOps3 (W8 m ρ c) (Proc.devRef .tc main_v73) = _
  after_results_simp
  rw [W8_v60, W8_v3, W8_v6, W8_v29]
  rfl

theorem V9_v74_apply (q : Fin 32) : V9 m ρ c main_v74 (ix2 (0 : Fin 1) q) = A7 m c (ix1 q) := by
  have e : V9 m ρ c main_v74 = shapeCast S1x32 (W8 m ρ c (Proc.devRef .tc main_arg7)) shapeCasts_S32_S1x32 := by
    show StableHlo.after hostOps3 (W8 m ρ c) (Proc.devRef .tc main_v74) = _
    after_results
    rfl
  rw [e, W8_arg7]
  exact row_of_vec (A7 m c) shapeCasts_S32_S1x32 q

/-- THE RESULT: region 3 leaves the third aggregate plus its bias, the reference's last stage. -/
theorem W10_v75 : W10 m ρ c (Proc.devRef .tc main_v75)
    = val_main_v82 (F := Ideal) (A0 m c) (A1 m c) (A2 m c) (A3 m c) (A4 m c) (A5 m c) (A6 m c) (A7 m c) := by
  refine (W10_arr m ρ c 2).trans ?_
  rw [Cert.KernelIdeal.Blocks.arr3 (V9 m ρ) c, V9_v73]
  funext i
  obtain ⟨r, q, rfl⟩ : ∃ (r : Fin 100000) (q : Fin 32), i = ix2 r q := ⟨i 0, i 1, eq_ix2 i⟩
  rw [ref82_apply]
  unfold Cert.KernelIdeal.Blocks.G3
  rw [V9_v74_apply]

end Cert.KernelIdeal.Fold

end
-- ==== Proof.lean ====
/-
  A three-layer graph convolution on 100000 nodes and 1600000 edges (a self-loop appended per node), kernel against reference,
  on the extended reals.

  Both programs compute, from the edge list alone, the same degree count and the same symmetric normaliser
  norm(e) = d(src e)^(-1/2) · d(dst e)^(-1/2) (zero where a degree is zero), and then three times: a linear map of the node
  features, a gather of its rows at the edges' sources scaled by norm, and a scatter-add into the edges' destinations,
  followed by a bias (and, after the first two layers, a rectifier). The reference writes each linear map as one matrix
  product over all 100000 rows and adds the bias and takes the rectifier as whole-array host operations. The kernel runs
  four grids of 20 points over row blocks of 5000: the first computes X · W1 block by block; the second and third add the
  previous layer's bias row to a block of the aggregate, take the maximum with zero, and multiply by the next weight; the
  fourth adds the last bias. Its matrix products narrow their operands to bf16 first, which is the identity on extended
  reals.

  The two results are equal entry by entry, with no law beyond the definitions: every entry (r, q) of a product is the
  same sum over k of the same products on both sides, a block of 5000 rows of the product being the product of that block
  of rows; the bias and the rectifier act entrywise on the same entries; and the aggregation stretches are the same
  operations on equal inputs. No finiteness of the inputs is used.

  Modules: Spec (the two per-entry sums), Payloads (each grid body's stored block at an entry), Blocks (each grid's
  output array as one whole-array function of the arrays it reads, the blocks tiling the array), KernelRun (the kernel's run
  with every buffer named at its end), RefRunP / RefReadP (the reference's run and its stages read at an index),
  RefStages (the reference's product and bias stages at an entry), Fold (the kernel's buffers at each boundary of its
  run equal the reference's stages), and the five claims here.
-/
import proofs.«166058_j6794638262379_1_alg».proof.Defs
import proofs.«166058_j6794638262379_1_alg».proof.Proof.Gen.Kernel
import proofs.«166058_j6794638262379_1_alg».proof.Proof.Gen.Kernel.Frame
import proofs.«166058_j6794638262379_1_alg».proof.Proof.Gen.KernelIdeal
import proofs.«166058_j6794638262379_1_alg».proof.Proof.Gen.KernelIdeal.Frame
import proofs.«166058_j6794638262379_1_alg».proof.Proof.Gen.ReferenceIdeal
import proofs.«166058_j6794638262379_1_alg».proof.Proof.Gen.Pre_finite_inputs
import proofs.«166058_j6794638262379_1_alg».proof.Proof.RefRunP
import proofs.«166058_j6794638262379_1_alg».proof.Proof.RefReadP
import proofs.«166058_j6794638262379_1_alg».proof.Proof.KernelRun
import proofs.«166058_j6794638262379_1_alg».proof.Proof.Fold
import Idealize.ShloMosaic.Adequacy
import Idealize.ShloMosaic.Init

noncomputable section

namespace Cert.Proof

open Idealize.ShloMosaic Idealize.ShloMosaic.TcCoe Idealize.SL.Sem

/-- The kernel as printed runs to its end without a fault and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel was rewritten to read it on the extended reals. -/
theorem preserves : Cert.preserves_Kernel_KernelIdeal := trivial

/-- From memories that agree on the arguments both programs end with the same result array: the kernel's last grid
    leaves the reference's last stage of the same arguments. -/
theorem algebraic : Cert.algebraic_KernelIdeal_ReferenceIdeal := by
  intro m ρ m' ρ' _ hagree
  refine ⟨fun c => Cert.KernelIdeal.Gen.W10 m ρ c (Proc.devRef .tc Cert.KernelIdeal.main_v75),
    Cert.KernelIdeal.KernelRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.Read.val_main_v82_eq, e0, e1, e2, e3, e4, e5, e6, e7]
  exact (Cert.KernelIdeal.Fold.W10_v75 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
